-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S2000 : Shape := ⟨1, ![2000]⟩

abbrev nBuf : Space → Nat
  | .hbm => 66
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x1, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x1, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000, .f32⟩
  | 109 => ⟨S50000x1, .f32⟩
  | 110 => ⟨S_, .f32⟩
  | 111 => ⟨S50000x1, .f32⟩
  | 112 => ⟨S50000x1, .f32⟩
  | 113 => ⟨S50000x128, .f32⟩
  | 114 => ⟨S50000x128, .f32⟩
  | 115 => ⟨S50000x128, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S_, .f32⟩
  | 125 => ⟨S50000x1, .f32⟩
  | 126 => ⟨S50000x1, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call0_cst : Ref sig .tc := ⟨.hbm, 81, rfl⟩
abbrev main_call0_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_call1_cst : Ref sig .tc := ⟨.hbm, 136, rfl⟩
abbrev main_call1_v0 : Ref sig .tc := ⟨.hbm, 137, rfl⟩
abbrev main_v102 : Ref sig .tc := ⟨.hbm, 138, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with every buffer named.

  @main is three tiled regions among stretches of host operations. The buffer contents at each boundary form a
  fold from the launch memory: a stretch applies its operations, a region replaces each output array by what its
  write-backs leave. The run below states that every weakly fair execution terminates with EVERY buffer that lives
  as long as the program at the fold's last contents; the result array and the unchanged arguments are read off it.
-/
import proofs.«114655_j7524782702754_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every program-long buffer of every core
    at the last boundary's contents `W6`: the launch over the six segments, the last thread state read against the
    final state. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array and the arguments singled out: the result at the fold's last contents, each
    argument as launched. -/
theorem run_result : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_fold m ρ)

end Cert.KernelIdeal.Whole

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.RowSpec.lean ====
/-
  One node's row through a graph-convolution layer, on the extended reals.

  A row `x` of aggregated neighbour features is scaled by the node's in-degree factor `s`, multiplied into the
  weights `W`, shifted by the bias `b` (`affRow`); the resulting row is normalised to zero mean and unit
  variance over its 128 entries, a small constant being added to the variance before the inverse square root,
  then scaled by `g`, shifted by `be` (`lnRow`) and clipped below at zero (`reluRow`). Every entry of the
  output depends on the whole input row and on no other row: this is what lets a computation tiled over rows
  and a computation over the whole matrix agree entry by entry.
-/
import Idealize.ShloMosaic.PureOps.Ideal
import Idealize.ShloMosaic.PureOps.Ideal.Laws

noncomputable section

namespace Cert.Gcn

open Idealize.ShloMosaic

/-- The row times the in-degree factor, through the weights, plus the bias: entry `j`. -/
def affRow (x : Fin 128 → EReal) (s : EReal) (W : Fin 128 → Fin 128 → EReal) (b : Fin 128 → EReal) (j : Fin 128) : EReal :=
  (∑ k : Fin 128, (x k * s) * W k j) + b j

/-- The mean of a row of 128 entries: their sum divided by the float 128. -/
def meanRow (y : Fin 128 → EReal) : EReal :=
  Ideal.div (∑ j : Fin 128, y j) (Ideal.ofBits .f32 0x43000000#32)

/-- The centred row's mean square. -/
def varRow (y : Fin 128 → EReal) : EReal :=
  meanRow fun j => (y j - meanRow y) * (y j - meanRow y)

/-- Layer normalisation of a row with gain `g` and shift `be`: entry `q`. -/
def lnRow (y g be : Fin 128 → EReal) (q : Fin 128) : EReal :=
  ((y q - meanRow y) * Ideal.rsqrt (varRow y + Ideal.ofBits .f32 0x3727C5AC#32)) * g q + be q

/-- The normalised row clipped below at zero. -/
def reluRow (y g be : Fin 128 → EReal) (q : Fin 128) : EReal :=
  max (lnRow y g be q) (Ideal.ofBits .f32 0x00000000#32)

/-- The whole layer on one row. -/
def denseRow (x : Fin 128 → EReal) (s : EReal) (W : Fin 128 → Fin 128 → EReal) (b g be : Fin 128 → EReal)
    (q : Fin 128) : EReal :=
  reluRow (affRow x s W b) g be q

/-- The layer on a row depends only on the row, the factor and the parameters it is given. -/
theorem denseRow_congr {x x' : Fin 128 → EReal} {s s' : EReal} {W W' : Fin 128 → Fin 128 → EReal} {b b' g g' be be' : Fin 128 → EReal}
    (hx : x = x') (hs : s = s') (hW : W = W') (hb : b = b') (hg : g = g') (hbe : be = be') (q : Fin 128) :
    denseRow x s W b g be q = denseRow x' s' W' b' g' be' q := by
  subst hx hs hW hb hg hbe; rfl

end Cert.Gcn

end
-- ==== Proof.KernelBlocks0.lean ====
/-
  The row-scaling region: its output array as one function of the arrays it is entered with.

  The region tiles the 50000 rows into 25 blocks of 2000; at block `t` the body multiplies each row of the block
  by that row's one-entry factor. Row `p` of block `t` is row `2000 t + p` of the arrays, the blocks cover every
  row exactly once, so the output array is the feature matrix with every row scaled by its own factor.
-/
import proofs.«114655_j7524782702754_2_alg».proof.Proof.Gen.KernelIdeal.Frame
import proofs.«114655_j7524782702754_2_alg».proof.Proof.LibLayout
import proofs.«114655_j7524782702754_2_alg».proof.Proof.RowSpec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Attn.Layout

variable (V : (c : Dev nD) → (b : Ref sig .tc) → Buf (Elt Ideal) ((c : Thread nD τ).loc b))

theorem hz : (![0, 0] : Fin 2 → Nat) = fun _ => 0 := funext fun a => by fin_cases a <;> rfl

/-- Every row of `x` scaled by its own entry of the one-column array `s`. -/
def scaleRows (x : S50000x128.Idx → EReal) (s : S50000x1.Idx → EReal) : S50000x128.Idx → EReal :=
  fun i => x i * s (ix2 (⟨(i 0).val, idx2_lt0 i⟩ : Fin 50000) (0 : Fin 1))

/-- Row `p` of block `t` as a row of the array. -/
def rowAt (t : ℕ) (ht : t < 25) (p : Fin 2000) : Fin 50000 := ⟨t * 2000 + p.val, by have := p.isLt; omega⟩

/-- The last layer on the whole matrix: every row through `Cert.Gcn.denseRow`, with its own in-degree factor. -/
def denseRows (agg : S50000x128.Idx → EReal) (isi : S50000x1.Idx → EReal) (W : S128x128.Idx → EReal)
    (b g be : S1x128.Idx → EReal) : S50000x128.Idx → EReal :=
  fun i => Cert.Gcn.denseRow (fun k => agg (ix2 (⟨(i 0).val, idx2_lt0 i⟩ : Fin 50000) k))
    (isi (ix2 (⟨(i 0).val, idx2_lt0 i⟩ : Fin 50000) (0 : Fin 1))) (fun k j => W (ix2 k j)) (fun j => b (ix2 (0 : Fin 1) j))
    (fun j => g (ix2 (0 : Fin 1) j)) (fun j => be (ix2 (0 : Fin 1) j)) (⟨(i 1).val, idx2_lt1 i⟩ : Fin 128)

/-- The first layer on the whole matrix: the same, each row then scaled by its out-degree factor. -/
def layerRows (agg : S50000x128.Idx → EReal) (isi iso : S50000x1.Idx → EReal) (W : S128x128.Idx → EReal)
    (b g be : S1x128.Idx → EReal) : S50000x128.Idx → EReal :=
  fun i => denseRows agg isi W b g be i * iso (ix2 (⟨(i 0).val, idx2_lt0 i⟩ : Fin 50000) (0 : Fin 1))

/-! ## Region 0 -/

/-- The three windows' block indices at point `t`: block row `t`, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's product at row `p`, column `q` of the block. -/
theorem pay0_at (x0 : Vec Ideal S2000x128 .f32) (x1 : Vec Ideal S2000x1 .f32) (p : Fin 2000) (q : Fin 128) :
    k0_pay1 (F := Ideal) x0 x1 (ix2 p q) = x0 (ix2 p q) * x1 (ix2 p (0 : Fin 1)) := by
  unfold k0_pay1
  rw [mulf_apply, broadcastTo_a1_ab_apply, shapeCast_self]

theorem flushed0 (c : Dev nD) (t : Fin cfg0.N) :
    (dat0 V c).flushed 2 t = ((cfg0.win 2).blk t).view.read (Elt Ideal) (scaleRows (V c main_arg0) (V c main_v12)) := by
  show (cfg0.win 2).cut (grid0.coords t) ((dat0 V c).after 2 t) = _
  rw [after0_2]
  unfold out0_2
  rw [View.canon_unit_zero hz]
  simp only [View.ld_unit_zero (S := S2000x128) hz, View.ld_unit_zero (S := S2000x1) hz]
  funext y
  obtain ⟨p, q, rfl⟩ : ∃ (p : Fin 2000) (q : Fin 128), y = ix2 p q := ⟨y 0, y 1, eq_ix2 y⟩
  obtain ⟨e00, e01, e10, e11, e20, e21⟩ := idx0 t
  show k0_pay1 (iblk0 V c 0 t) (iblk0 V c 1 t) (ix2 p q)
    = scaleRows (V c main_arg0) (V c main_v12) (((cfg0.win 2).blk t).view.emb (ix2 p q))
  refine (pay0_at (iblk0 V c 0 t) (iblk0 V c 1 t) p q).trans ?_
  let A : S50000x128.Idx → EReal := V c main_arg0
  let S : S50000x1.Idx → EReal := V c main_v12
  show A (((cfg0.win 0).blk t).view.emb (ix2 p q)) * S (((cfg0.win 1).blk t).view.emb (ix2 p (0 : Fin 1)))
    = A (((cfg0.win 2).blk t).view.emb (ix2 p q))
      * S (ix2 (⟨((((cfg0.win 2).blk t).view.emb (ix2 p q)) 0).val, idx2_lt0 _⟩ : Fin 50000) (0 : Fin 1))
  refine congrArg₂ (fun a b : EReal => a * b) (congrArg A ?_) (congrArg S ?_)
  · refine funext fun a => Fin.ext ?_
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * q.val = win0_2.index t (1 : Fin 2) * 128 + 1 * q.val; omega
  · refine funext fun a => Fin.ext ?_
    match a with
    | ⟨0, _⟩ => show win0_1.index t (0 : Fin 2) * 2000 + 1 * p.val = win0_2.index t (0 : Fin 2) * 2000 + 1 * p.val; omega
    | ⟨1, _⟩ => show win0_1.index t (1 : Fin 2) * 1 + 1 * 0 = 0; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- Every row lies in the block of its quotient by 2000. -/
theorem cover0 (i : S50000x128.Idx) : ∃ t : Fin cfg0.N, (cfg0.win 2).flush t = true ∧ i ∈ ((cfg0.win 2).blk t).view.set := by
  have h25 : cfg0.N = 25 := N_0
  have hi0 : (i 0).val < 50000 := idx2_lt0 i
  have hi1 : (i 1).val < 128 := idx2_lt1 i
  refine ⟨⟨(i 0).val / 2000, by omega⟩, flush0_2 _, ?_⟩
  rw [mem_blk0]
  obtain ⟨-, -, -, -, e20, e21⟩ := idx0 ⟨(i 0).val / 2000, by omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ _ ∧ _ < (i 0).val / 2000 * 2000 + 2000; omega
  | ⟨1, _⟩ => show win0_2.index _ (1 : Fin 2) * 128 ≤ (i 1).val ∧ (i 1).val < win0_2.index _ (1 : Fin 2) * 128 + 128; rw [e21]; omega

/-- The region's output array after its run. -/
theorem final0 (c : Dev nD) : (dat0 V c).arrAt 2 cfg0.N = scaleRows (V c main_arg0) (V c main_v12) :=
  (dat0 V c).arrAt_eq_of_cover 2 (scaleRows (V c main_arg0) (V c main_v12)) (fun t _ => flushed0 V c t) cover0

end Cert.KernelIdeal.Blocks

end
-- ==== Proof.KernelRow.lean ====
/-
  The dense kernels' arithmetic on one block of 2000 rows, read row by row.

  Both dense kernels compute, on a block `x0` of aggregated rows with the column `x1` of in-degree factors, the
  weights `x2` and the three parameter rows `x3`, `x4`, `x5`: the affine map of every scaled row (`blkAff`),
  the mean over each row's 128 entries as a one-column block (`blkMean`), and the normalised, scaled and shifted
  block (`blkLn`). Read at row `p` and column `q` each of these is the corresponding function of ROW `p` ALONE
  (`Cert.Gcn.affRow`, `meanRow`, `lnRow`): the matrix product's entry is the sum over the contracted axis, the lane
  reduction's entry the sum over the row, and the column and row broadcasts repeat one entry.
-/
import proofs.«114655_j7524782702754_2_alg».proof.Proof.Gen.KernelIdeal.Skeleton
import proofs.«114655_j7524782702754_2_alg».proof.Proof.RowSpec
import proofs.«114655_j7524782702754_2_alg».proof.Proof.LibLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.Gcn
open Cert.Attn.Layout

/-! ## The block-level stages -/

/-- Every row of the block scaled by its in-degree factor, through the weights, plus the bias row. -/
def blkAff (x0 : Vec Ideal S2000x128 .f32) (x1 : Vec Ideal S2000x1 .f32) (x2 : Vec Ideal S128x128 .f32)
    (x3 : Vec Ideal S1x128 .f32) : FVec Ideal S2000x128 .f32 :=
  addf (matmul dot_S2000x128_S128x128_S2000x128_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (truncf .bf16 x2 bitsLt_bf16_f32) (constant S2000x128 .f32 0x00000000#32))
    (broadcastTo S2000x128 (shapeCast S1x128 x3 shapeCasts_S1x128_S1x128) broadcasts_S1x128_S2000x128)

/-- Each row's mean, as a one-column block. -/
def blkMean (y : FVec Ideal S2000x128 .f32) : FVec Ideal S2000x1 .f32 :=
  divf (shapeCast S2000x1 (multiReduction .add [1] S2000 y 0x00000000#32 reduces_S2000x128_S2000 (.inl rfl) rfl) shapeCasts_S2000_S2000x1)
    (broadcast S2000x1 (Scalar.ofBits .f32 0x43000000#32))

/-- The block with each row's mean taken off. -/
def blkCen (y : FVec Ideal S2000x128 .f32) : FVec Ideal S2000x128 .f32 :=
  subf y (broadcastTo S2000x128 (blkMean y) broadcasts_S2000x1_S2000x128)

/-- The normalised block, scaled by the gain row and shifted. -/
def blkLn (y : FVec Ideal S2000x128 .f32) (x4 x5 : Vec Ideal S1x128 .f32) : FVec Ideal S2000x128 .f32 :=
  addf (mulf (mulf (blkCen y)
        (broadcastTo S2000x128 (rsqrt (addf (blkMean (mulf (blkCen y) (blkCen y))) (broadcast S2000x1 (Scalar.ofBits .f32 0x3727C5AC#32))))
          broadcasts_S2000x1_S2000x128))
      (broadcastTo S2000x128 (shapeCast S1x128 x4 shapeCasts_S1x128_S1x128) broadcasts_S1x128_S2000x128))
    (broadcastTo S2000x128 (shapeCast S1x128 x5 shapeCasts_S1x128_S1x128) broadcasts_S1x128_S2000x128)

/-- The two dense kernels' common arithmetic is these stages composed. -/
theorem k1_pay2_eq (x0 : Vec Ideal S2000x128 .f32) (x1 : Vec Ideal S2000x1 .f32) (x2 : Vec Ideal S128x128 .f32)
    (x3 x4 x5 : Vec Ideal S1x128 .f32) : k1_pay2 (F := Ideal) x0 x1 x2 x3 x4 x5 = blkLn (blkAff x0 x1 x2 x3) x4 x5 := rfl

theorem k2_pay2_eq (x0 : Vec Ideal S2000x128 .f32) (x1 : Vec Ideal S2000x1 .f32) (x2 : Vec Ideal S128x128 .f32)
    (x3 x4 x5 : Vec Ideal S1x128 .f32) : k2_pay2 (F := Ideal) x0 x1 x2 x3 x4 x5 = blkLn (blkAff x0 x1 x2 x3) x4 x5 := rfl

/-! ## The stages at a row and a column -/

/-- The product's left operand index at output `(p, j)` and contracted coordinate `k` is `(p, k)`. -/
theorem lhsIdx_eq (p : Fin 2000) (j k : Fin 128) :
    dot_S2000x128_S128x128_S2000x128_1_0_0_1_n_n.lhsIdx (ix2 p j) ((contrEquiv1 dot_S2000x128_S128x128_S2000x128_1_0_0_1_n_n 128 rfl rfl).symm k) = ix2 p k :=
  funext fun a => Fin.ext (by
    have hk := contrEquiv1_symm_val dot_S2000x128_S128x128_S2000x128_1_0_0_1_n_n 128 rfl rfl k
    match a with
    | ⟨0, _⟩ =>
      show (dot_S2000x128_S128x128_S2000x128_1_0_0_1_n_n.lhsIdx (ix2 p j) _ 0).val = p.val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl _ _).trans hk)

/-- The product's right operand index there is `(k, j)`. -/
theorem rhsIdx_eq (p : Fin 2000) (j k : Fin 128) :
    dot_S2000x128_S128x128_S2000x128_1_0_0_1_n_n.rhsIdx (ix2 p j) ((contrEquiv1 dot_S2000x128_S128x128_S2000x128_1_0_0_1_n_n 128 rfl rfl).symm k) = ix2 k j :=
  funext fun a => Fin.ext (by
    have hk := contrEquiv1_symm_val dot_S2000x128_S128x128_S2000x128_1_0_0_1_n_n 128 rfl rfl k
    match a with
    | ⟨0, _⟩ => exact (dot_S2000x128_S128x128_S2000x128_1_0_0_1_n_n.rhsIdx_val_of_single rfl _ _).trans hk
    | ⟨1, _⟩ =>
      show (dot_S2000x128_S128x128_S2000x128_1_0_0_1_n_n.rhsIdx (ix2 p j) _ 1).val = j.val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)

/-- The affine stage at `(p, j)` is the affine map of row `p`. -/
theorem blkAff_apply (x0 : Vec Ideal S2000x128 .f32) (x1 : Vec Ideal S2000x1 .f32) (x2 : Vec Ideal S128x128 .f32)
    (x3 : Vec Ideal S1x128 .f32) (p : Fin 2000) (j : Fin 128) :
    blkAff x0 x1 x2 x3 (ix2 p j)
      = affRow (fun k => x0 (ix2 p k)) (x1 (ix2 p (0 : Fin 1))) (fun k j' => x2 (ix2 k j')) (fun j' => x3 (ix2 (0 : Fin 1) j')) j := by
  unfold blkAff affRow
  rw [addf_apply, broadcastTo_1b_ab_apply]
  simp only [shapeCast_self]
  refine congrArg (fun z : EReal => z + x3 (ix2 (0 : Fin 1) j)) ?_
  refine (Ideal.matmul_constant_zero_apply dot_S2000x128_S128x128_S2000x128_1_0_0_1_n_n none _ _ (ix2 p j)).trans ?_
  rw [← Equiv.sum_comp (contrEquiv1 dot_S2000x128_S128x128_S2000x128_1_0_0_1_n_n 128 rfl rfl).symm]
  refine Finset.sum_congr rfl fun k _ => ?_
  rw [lhsIdx_eq, rhsIdx_eq, truncf_apply, truncf_apply, mulf_apply, broadcastTo_a1_ab_apply]

/-- The reduced index `p` with column `k` put back is `(p, k)`. -/
theorem lift_row (p : Fin 2000) (k : Fin (S2000x128.size 1)) :
    reduces_S2000x128_S2000.lift (ix1 p) k = ix2 p (⟨k.val, k.isLt⟩ : Fin 128) := by
  funext c; apply Fin.ext
  fin_cases c <;> rfl

/-- A row's mean entry is the mean of that row. -/
theorem blkMean_apply (y : FVec Ideal S2000x128 .f32) (p : Fin 2000) :
    blkMean y (ix2 p (0 : Fin 1)) = meanRow fun j => y (ix2 p j) := by
  unfold blkMean meanRow
  rw [divf_apply, shapeCast_a_a1_apply]
  refine congrArg (Ideal.div · _) ?_
  refine (Ideal.multiReduction_add_single y 0x00000000#32 reduces_S2000x128_S2000 (.inl rfl) rfl (ix1 p)).trans ?_
  exact Finset.sum_congr rfl fun k _ => congrArg y (lift_row p k)

/-- The centred block at `(p, j)`. -/
theorem blkCen_apply (y : FVec Ideal S2000x128 .f32) (p : Fin 2000) (j : Fin 128) :
    blkCen y (ix2 p j) = y (ix2 p j) - meanRow fun j' => y (ix2 p j') := by
  unfold blkCen
  rw [subf_apply, broadcastTo_a1_ab_apply, blkMean_apply]

/-- The normalised block at `(p, q)` is the layer normalisation of row `p`. -/
theorem blkLn_apply (y : FVec Ideal S2000x128 .f32) (x4 x5 : Vec Ideal S1x128 .f32) (p : Fin 2000) (q : Fin 128) :
    blkLn y x4 x5 (ix2 p q)
      = lnRow (fun j => y (ix2 p j)) (fun j => x4 (ix2 (0 : Fin 1) j)) (fun j => x5 (ix2 (0 : Fin 1) j)) q := by
  unfold blkLn lnRow varRow
  rw [addf_apply, mulf_apply, mulf_apply, broadcastTo_1b_ab_apply, broadcastTo_1b_ab_apply,
    broadcastTo_a1_ab_apply, blkCen_apply]
  simp only [shapeCast_self]
  show _ * Ideal.rsqrt (blkMean (mulf (blkCen y) (blkCen y)) (ix2 p (0 : Fin 1)) + Ideal.ofBits .f32 0x3727C5AC#32) * _ + _ = _
  rw [blkMean_apply]
  simp only [mulf_apply, blkCen_apply]

/-! ## What each dense kernel stores, at a row and a column -/

/-- The last layer's kernel stores, at `(p, q)`, the whole layer applied to row `p` of its block. -/
theorem pay2_at (x0 : Vec Ideal S2000x128 .f32) (x1 : Vec Ideal S2000x1 .f32) (x2 : Vec Ideal S128x128 .f32)
    (x3 x4 x5 : Vec Ideal S1x128 .f32) (p : Fin 2000) (q : Fin 128) :
    k2_pay1 (F := Ideal) (k2_pay2 x0 x1 x2 x3 x4 x5) (Scalar.ofBits .f32 0x00000000#32) (ix2 p q)
      = denseRow (fun k => x0 (ix2 p k)) (x1 (ix2 p (0 : Fin 1))) (fun k j => x2 (ix2 k j)) (fun j => x3 (ix2 (0 : Fin 1) j))
          (fun j => x4 (ix2 (0 : Fin 1) j)) (fun j => x5 (ix2 (0 : Fin 1) j)) q := by
  unfold k2_pay1 denseRow reluRow
  rw [maximumf_apply, broadcast_apply, k2_pay2_eq, blkLn_apply,
    show (fun j => blkAff x0 x1 x2 x3 (ix2 p j)) = affRow (fun k => x0 (ix2 p k)) (x1 (ix2 p (0 : Fin 1))) (fun k j => x2 (ix2 k j))
      (fun j => x3 (ix2 (0 : Fin 1) j)) from funext (blkAff_apply x0 x1 x2 x3 p)]
  rfl

/-- The first layer's kernel stores the same, times the row's out-degree factor `x2`. -/
theorem pay1_at (x0 : Vec Ideal S2000x128 .f32) (x1 x2 : Vec Ideal S2000x1 .f32) (x3 : Vec Ideal S128x128 .f32)
    (x4 x5 x6 : Vec Ideal S1x128 .f32) (p : Fin 2000) (q : Fin 128) :
    k1_pay1 (F := Ideal) (k1_pay2 x0 x1 x3 x4 x5 x6) (Scalar.ofBits .f32 0x00000000#32) x2 (ix2 p q)
      = denseRow (fun k => x0 (ix2 p k)) (x1 (ix2 p (0 : Fin 1))) (fun k j => x3 (ix2 k j)) (fun j => x4 (ix2 (0 : Fin 1) j))
          (fun j => x5 (ix2 (0 : Fin 1) j)) (fun j => x6 (ix2 (0 : Fin 1) j)) q * x2 (ix2 p (0 : Fin 1)) := by
  unfold k1_pay1 denseRow reluRow
  rw [mulf_apply, maximumf_apply, broadcast_apply, broadcastTo_a1_ab_apply, shapeCast_self, k1_pay2_eq, blkLn_apply,
    show (fun j => blkAff x0 x1 x3 x4 (ix2 p j)) = affRow (fun k => x0 (ix2 p k)) (x1 (ix2 p (0 : Fin 1))) (fun k j => x3 (ix2 k j))
      (fun j => x4 (ix2 (0 : Fin 1) j)) from funext (blkAff_apply x0 x1 x3 x4 p)]
  rfl

end Cert.KernelIdeal.Rows

end
-- ==== Proof.KernelBlocks1.lean ====
/-
  The first dense region: its output array as one function of the arrays it is entered with.

  The region tiles the 50000 rows into 25 blocks of 2000; the weights and the three parameter rows are whole-array windows.
  Row `p` of block `t` is row `2000 t + p` of the arrays, the body's result on a row depends on that row alone, and the blocks
  cover every row once: the output array is the layer applied to every row, each then scaled by its out-degree factor.
-/
import proofs.«114655_j7524782702754_2_alg».proof.Proof.KernelBlocks0
import proofs.«114655_j7524782702754_2_alg».proof.Proof.KernelRow

set_option maxRecDepth 16384

noncomputable section

namespace Cert.KernelIdeal.Blocks

open Cert.KernelIdeal Cert.KernelIdeal.Gen Cert.KernelIdeal.Rows Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The windows' block indices at point `t`: the row-tiled windows sit at block row `t`, the whole-array windows at the origin. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-! ## Where a block's entries sit in the arrays -/

theorem emb1_0 (t : Fin cfg1.N) (ht : t.val < 25) (p : Fin 2000) (j : Fin 128) :
    ((cfg1.win 0).blk t).view.emb (ix2 p j) = ix2 (rowAt t.val ht p) j := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_0.index t (0 : Fin 2) * 2000 + 1 * p.val = t.val * 2000 + p.val; omega
  | ⟨1, _⟩ => show win1_0.index t (1 : Fin 2) * 128 + 1 * j.val = j.val; omega

theorem emb1_1 (t : Fin cfg1.N) (ht : t.val < 25) (p : Fin 2000) (u : Fin 1) :
    ((cfg1.win 1).blk t).view.emb (ix2 p u) = ix2 (rowAt t.val ht p) u := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_1.index t (0 : Fin 2) * 2000 + 1 * p.val = t.val * 2000 + p.val; omega
  | ⟨1, _⟩ => show win1_1.index t (1 : Fin 2) * 1 + 1 * u.val = u.val; omega

theorem emb1_2 (t : Fin cfg1.N) (ht : t.val < 25) (p : Fin 2000) (u : Fin 1) :
    ((cfg1.win 2).blk t).view.emb (ix2 p u) = ix2 (rowAt t.val ht p) u := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_2.index t (0 : Fin 2) * 2000 + 1 * p.val = t.val * 2000 + p.val; omega
  | ⟨1, _⟩ => show win1_2.index t (1 : Fin 2) * 1 + 1 * u.val = u.val; omega

theorem emb1_3 (t : Fin cfg1.N) (i : Fin 128) (j : Fin 128) :
    ((cfg1.win 3).blk t).view.emb (ix2 i j) = ix2 i j := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_3.index t (0 : Fin 2) * 128 + 1 * i.val = i.val; omega
  | ⟨1, _⟩ => show win1_3.index t (1 : Fin 2) * 128 + 1 * j.val = j.val; omega

theorem emb1_4 (t : Fin cfg1.N) (u : Fin 1) (j : Fin 128) :
    ((cfg1.win 4).blk t).view.emb (ix2 u j) = ix2 u j := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_4.index t (0 : Fin 2) * 1 + 1 * u.val = u.val; omega
  | ⟨1, _⟩ => show win1_4.index t (1 : Fin 2) * 128 + 1 * j.val = j.val; omega

theorem emb1_5 (t : Fin cfg1.N) (u : Fin 1) (j : Fin 128) :
    ((cfg1.win 5).blk t).view.emb (ix2 u j) = ix2 u j := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_5.index t (0 : Fin 2) * 1 + 1 * u.val = u.val; omega
  | ⟨1, _⟩ => show win1_5.index t (1 : Fin 2) * 128 + 1 * j.val = j.val; omega

theorem emb1_6 (t : Fin cfg1.N) (u : Fin 1) (j : Fin 128) :
    ((cfg1.win 6).blk t).view.emb (ix2 u j) = ix2 u j := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_6.index t (0 : Fin 2) * 1 + 1 * u.val = u.val; omega
  | ⟨1, _⟩ => show win1_6.index t (1 : Fin 2) * 128 + 1 * j.val = j.val; omega

theorem emb1_7 (t : Fin cfg1.N) (ht : t.val < 25) (p : Fin 2000) (j : Fin 128) :
    ((cfg1.win 7).blk t).view.emb (ix2 p j) = ix2 (rowAt t.val ht p) j := by
  obtain ⟨e0a, e0b, e1a, e1b, e2a, e2b, e3a, e3b, e4a, e4b, e5a, e5b, e6a, e6b, e7a, e7b⟩ := idx1 t
  refine funext fun a => Fin.ext ?_
  match a with
  | ⟨0, _⟩ => show win1_7.index t (0 : Fin 2) * 2000 + 1 * p.val = t.val * 2000 + p.val; omega
  | ⟨1, _⟩ => show win1_7.index t (1 : Fin 2) * 128 + 1 * j.val = j.val; omega

/-! ## What a point writes back, the cover, the array -/

/-- Point `t` writes back block `t` of the layer applied row by row to the arrays the region is entered with. -/
theorem flushed1 (c : Dev nD) (t : Fin cfg1.N) :
    (dat1 V c).flushed 7 t = ((cfg1.win 7).blk t).view.read (Elt Ideal) (layerRows (V c main_v25) (V c main_v14) (V c main_v12) (V c main_arg3) (V c main_v26) (V c main_v27) (V c main_v28)) := by
  have ht : t.val < 25 := by have := t.isLt; have h25 : cfg1.N = 25 := N_1; omega
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k1_pay1 (k1_pay2 (iblk1 V c 0 t) (iblk1 V c 1 t) (iblk1 V c 3 t) (iblk1 V c 4 t) (iblk1 V c 5 t) (iblk1 V c 6 t)) (Scalar.ofBits .f32 0x00000000#32) (iblk1 V c 2 t) (ix2 p q)
    = layerRows (V c main_v25) (V c main_v14) (V c main_v12) (V c main_arg3) (V c main_v26) (V c main_v27) (V c main_v28) (((cfg1.win 7).blk t).view.emb (ix2 p q))
  refine (pay1_at (iblk1 V c 0 t) (iblk1 V c 1 t) (iblk1 V c 2 t) (iblk1 V c 3 t) (iblk1 V c 4 t) (iblk1 V c 5 t) (iblk1 V c 6 t) p q).trans ?_
  refine Eq.trans ?_ (congrArg (layerRows (V c main_v25) (V c main_v14) (V c main_v12) (V c main_arg3) (V c main_v26) (V c main_v27) (V c main_v28)) (emb1_7 t ht p q).symm)
  refine congrArg₂ (fun a b : EReal => a * b) ?_ (congrArg (V c main_v12) (emb1_2 t ht p (0 : Fin 1)))
  exact denseRow_congr (funext fun j => congrArg (V c main_v25) (emb1_0 t ht p j))
    (congrArg (V c main_v14) (emb1_1 t ht p (0 : Fin 1)))
    (funext fun i => funext fun j => congrArg (V c main_arg3) (emb1_3 t i j))
    (funext fun j => congrArg (V c main_v26) (emb1_4 t (0 : Fin 1) j))
    (funext fun j => congrArg (V c main_v27) (emb1_5 t (0 : Fin 1) j))
    (funext fun j => congrArg (V c main_v28) (emb1_6 t (0 : Fin 1) j)) q

/-- An index of the array is in point `t`'s block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v29).slice (win1_7.rect t)).set ↔ _
  rw [View.set_slice_whole, Rect.mem_set_unit]
  exact Iff.rfl

/-- Every row lies in the block of its quotient by 2000. -/
theorem cover1 (i : S50000x128.Idx) : ∃ t : Fin cfg1.N, (cfg1.win 7).flush t = true ∧ i ∈ ((cfg1.win 7).blk t).view.set := by
  have h25 : cfg1.N = 25 := N_1
  have h25' : grid1.N = 25 := N_1
  have hi0 : (i 0).val < 50000 := idx2_lt0 i
  have hi1 : (i 1).val < 128 := idx2_lt1 i
  refine ⟨⟨(i 0).val / 2000, by omega⟩, flush1_7 _, ?_⟩
  rw [mem_blk1]
  have eo := idx1 ⟨(i 0).val / 2000, by omega⟩
  have ea : win1_7.index ⟨(i 0).val / 2000, by omega⟩ (0 : Fin 2) = (i 0).val / 2000 := (((((((((((((((eo).2).2).2).2).2).2).2).2).2).2).2).2).2).2).1
  have eb : win1_7.index ⟨(i 0).val / 2000, by omega⟩ (1 : Fin 2) = 0 := (((((((((((((((eo).2).2).2).2).2).2).2).2).2).2).2).2).2).2).2
  intro a
  match a with
  | ⟨0, _⟩ => show win1_7.index _ (0 : Fin 2) * 2000 ≤ (i 0).val ∧ (i 0).val < win1_7.index _ (0 : Fin 2) * 2000 + 2000; rw [ea]; omega
  | ⟨1, _⟩ => show win1_7.index _ (1 : Fin 2) * 128 ≤ (i 1).val ∧ (i 1).val < win1_7.index _ (1 : Fin 2) * 128 + 128; rw [eb]; omega

/-- The region's output array after its run. -/
theorem final1 (c : Dev nD) : (dat1 V c).arrAt 7 cfg1.N = layerRows (V c main_v25) (V c main_v14) (V c main_v12) (V c main_arg3) (V c main_v26) (V c main_v27) (V c main_v28) :=
  (dat1 V c).arrAt_eq_of_cover 7 (layerRows (V c main_v25) (V c main_v14) (V c main_v12) (V c main_arg3) (V c main_v26) (V c main_v27) (V c main_v28)) (fun t _ => flushed1 V c t) cover1

end Cert.KernelIdeal.Blocks

end
-- ==== Proof.KernelBlocks2.lean ====
/-
  The last dense region: its output array as one function of the arrays it is entered with.

  The region tiles the 50000 rows into 25 blocks of 2000; the weights and the three parameter rows are whole-array windows.
  Row `p` of block `t` is row `2000 t + p` of the arrays, the body's result on a row depends on that row alone, and the blocks
  cover every row once: the output array is the layer applied to every row.
-/
import proofs.«114655_j7524782702754_2_alg».proof.Proof.KernelBlocks0
import proofs.«114655_j7524782702754_2_alg».proof.Proof.KernelRow

set_option maxRecDepth 16384

noncomputable section

namespace Cert.KernelIdeal.Blocks

open Cert.KernelIdeal Cert.KernelIdeal.Gen Cert.KernelIdeal.Rows Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The windows' block indices at point `t`: the row-tiled windows sit at block row `t`, the whole-array windows at the origin. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-! ## Where a block's entries sit in the arrays -/

theorem emb2_0 (t : Fin cfg2.N) (ht : t.val < 25) (p : Fin 2000) (j : Fin 128) :
    ((cfg2.win 0).blk t).view.emb (ix2 p j) = ix2 (rowAt t.val ht p) j := by
  obtain ⟨e0a, e0b, e1a, e1b, e2a, e2b, e3a, e3b, e4a, e4b, e5a, e5b, e6a, e6b⟩ := idx2 t
  refine funext fun a => Fin.ext ?_
  match a with
  | ⟨0, _⟩ => show win2_0.index t (0 : Fin 2) * 2000 + 1 * p.val = t.val * 2000 + p.val; omega
  | ⟨1, _⟩ => show win2_0.index t (1 : Fin 2) * 128 + 1 * j.val = j.val; omega

theorem emb2_1 (t : Fin cfg2.N) (ht : t.val < 25) (p : Fin 2000) (u : Fin 1) :
    ((cfg2.win 1).blk t).view.emb (ix2 p u) = ix2 (rowAt t.val ht p) u := by
  obtain ⟨e0a, e0b, e1a, e1b, e2a, e2b, e3a, e3b, e4a, e4b, e5a, e5b, e6a, e6b⟩ := idx2 t
  refine funext fun a => Fin.ext ?_
  match a with
  | ⟨0, _⟩ => show win2_1.index t (0 : Fin 2) * 2000 + 1 * p.val = t.val * 2000 + p.val; omega
  | ⟨1, _⟩ => show win2_1.index t (1 : Fin 2) * 1 + 1 * u.val = u.val; omega

theorem emb2_2 (t : Fin cfg2.N) (i : Fin 128) (j : Fin 128) :
    ((cfg2.win 2).blk t).view.emb (ix2 i j) = ix2 i j := by
  obtain ⟨e0a, e0b, e1a, e1b, e2a, e2b, e3a, e3b, e4a, e4b, e5a, e5b, e6a, e6b⟩ := idx2 t
  refine funext fun a => Fin.ext ?_
  match a with
  | ⟨0, _⟩ => show win2_2.index t (0 : Fin 2) * 128 + 1 * i.val = i.val; omega
  | ⟨1, _⟩ => show win2_2.index t (1 : Fin 2) * 128 + 1 * j.val = j.val; omega

theorem emb2_3 (t : Fin cfg2.N) (u : Fin 1) (j : Fin 128) :
    ((cfg2.win 3).blk t).view.emb (ix2 u j) = ix2 u j := by
  obtain ⟨e0a, e0b, e1a, e1b, e2a, e2b, e3a, e3b, e4a, e4b, e5a, e5b, e6a, e6b⟩ := idx2 t
  refine funext fun a => Fin.ext ?_
  match a with
  | ⟨0, _⟩ => show win2_3.index t (0 : Fin 2) * 1 + 1 * u.val = u.val; omega
  | ⟨1, _⟩ => show win2_3.index t (1 : Fin 2) * 128 + 1 * j.val = j.val; omega

theorem emb2_4 (t : Fin cfg2.N) (u : Fin 1) (j : Fin 128) :
    ((cfg2.win 4).blk t).view.emb (ix2 u j) = ix2 u j := by
  obtain ⟨e0a, e0b, e1a, e1b, e2a, e2b, e3a, e3b, e4a, e4b, e5a, e5b, e6a, e6b⟩ := idx2 t
  refine funext fun a => Fin.ext ?_
  match a with
  | ⟨0, _⟩ => show win2_4.index t (0 : Fin 2) * 1 + 1 * u.val = u.val; omega
  | ⟨1, _⟩ => show win2_4.index t (1 : Fin 2) * 128 + 1 * j.val = j.val; omega

theorem emb2_5 (t : Fin cfg2.N) (u : Fin 1) (j : Fin 128) :
    ((cfg2.win 5).blk t).view.emb (ix2 u j) = ix2 u j := by
  obtain ⟨e0a, e0b, e1a, e1b, e2a, e2b, e3a, e3b, e4a, e4b, e5a, e5b, e6a, e6b⟩ := idx2 t
  refine funext fun a => Fin.ext ?_
  match a with
  | ⟨0, _⟩ => show win2_5.index t (0 : Fin 2) * 1 + 1 * u.val = u.val; omega
  | ⟨1, _⟩ => show win2_5.index t (1 : Fin 2) * 128 + 1 * j.val = j.val; omega

theorem emb2_6 (t : Fin cfg2.N) (ht : t.val < 25) (p : Fin 2000) (j : Fin 128) :
    ((cfg2.win 6).blk t).view.emb (ix2 p j) = ix2 (rowAt t.val ht p) j := by
  obtain ⟨e0a, e0b, e1a, e1b, e2a, e2b, e3a, e3b, e4a, e4b, e5a, e5b, e6a, e6b⟩ := idx2 t
  refine funext fun a => Fin.ext ?_
  match a with
  | ⟨0, _⟩ => show win2_6.index t (0 : Fin 2) * 2000 + 1 * p.val = t.val * 2000 + p.val; omega
  | ⟨1, _⟩ => show win2_6.index t (1 : Fin 2) * 128 + 1 * j.val = j.val; omega

/-! ## What a point writes back, the cover, the array -/

/-- Point `t` writes back block `t` of the layer applied row by row to the arrays the region is entered with. -/
theorem flushed2 (c : Dev nD) (t : Fin cfg2.N) :
    (dat2 V c).flushed 6 t = ((cfg2.win 6).blk t).view.read (Elt Ideal) (denseRows (V c main_v39) (V c main_v14) (V c main_arg7) (V c main_v40) (V c main_v41) (V c main_v42)) := by
  have ht : t.val < 25 := by have := t.isLt; have h25 : cfg2.N = 25 := N_2; omega
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k2_pay1 (k2_pay2 (iblk2 V c 0 t) (iblk2 V c 1 t) (iblk2 V c 2 t) (iblk2 V c 3 t) (iblk2 V c 4 t) (iblk2 V c 5 t)) (Scalar.ofBits .f32 0x00000000#32) (ix2 p q)
    = denseRows (V c main_v39) (V c main_v14) (V c main_arg7) (V c main_v40) (V c main_v41) (V c main_v42) (((cfg2.win 6).blk t).view.emb (ix2 p q))
  refine (pay2_at (iblk2 V c 0 t) (iblk2 V c 1 t) (iblk2 V c 2 t) (iblk2 V c 3 t) (iblk2 V c 4 t) (iblk2 V c 5 t) p q).trans ?_
  refine Eq.trans ?_ (congrArg (denseRows (V c main_v39) (V c main_v14) (V c main_arg7) (V c main_v40) (V c main_v41) (V c main_v42)) (emb2_6 t ht p q).symm)
  exact denseRow_congr (funext fun j => congrArg (V c main_v39) (emb2_0 t ht p j))
    (congrArg (V c main_v14) (emb2_1 t ht p (0 : Fin 1)))
    (funext fun i => funext fun j => congrArg (V c main_arg7) (emb2_2 t i j))
    (funext fun j => congrArg (V c main_v40) (emb2_3 t (0 : Fin 1) j))
    (funext fun j => congrArg (V c main_v41) (emb2_4 t (0 : Fin 1) j))
    (funext fun j => congrArg (V c main_v42) (emb2_5 t (0 : Fin 1) j)) q

/-- An index of the array is in point `t`'s block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v43).slice (win2_6.rect t)).set ↔ _
  rw [View.set_slice_whole, Rect.mem_set_unit]
  exact Iff.rfl

/-- Every row lies in the block of its quotient by 2000. -/
theorem cover2 (i : S50000x128.Idx) : ∃ t : Fin cfg2.N, (cfg2.win 6).flush t = true ∧ i ∈ ((cfg2.win 6).blk t).view.set := by
  have h25 : cfg2.N = 25 := N_2
  have h25' : grid2.N = 25 := N_2
  have hi0 : (i 0).val < 50000 := idx2_lt0 i
  have hi1 : (i 1).val < 128 := idx2_lt1 i
  refine ⟨⟨(i 0).val / 2000, by omega⟩, flush2_6 _, ?_⟩
  rw [mem_blk2]
  have eo := idx2 ⟨(i 0).val / 2000, by omega⟩
  have ea : win2_6.index ⟨(i 0).val / 2000, by omega⟩ (0 : Fin 2) = (i 0).val / 2000 := (((((((((((((eo).2).2).2).2).2).2).2).2).2).2).2).2).1
  have eb : win2_6.index ⟨(i 0).val / 2000, by omega⟩ (1 : Fin 2) = 0 := (((((((((((((eo).2).2).2).2).2).2).2).2).2).2).2).2).2
  intro a
  match a with
  | ⟨0, _⟩ => show win2_6.index _ (0 : Fin 2) * 2000 ≤ (i 0).val ∧ (i 0).val < win2_6.index _ (0 : Fin 2) * 2000 + 2000; rw [ea]; omega
  | ⟨1, _⟩ => show win2_6.index _ (1 : Fin 2) * 128 ≤ (i 1).val ∧ (i 1).val < win2_6.index _ (1 : Fin 2) * 128 + 128; rw [eb]; omega

/-- The region's output array after its run. -/
theorem final2 (c : Dev nD) : (dat2 V c).arrAt 6 cfg2.N = denseRows (V c main_v39) (V c main_v14) (V c main_arg7) (V c main_v40) (V c main_v41) (V c main_v42) :=
  (dat2 V c).arrAt_eq_of_cover 6 (denseRows (V c main_v39) (V c main_v14) (V c main_arg7) (V c main_v40) (V c main_v41) (V c main_v42)) (fun t _ => flushed2 V c t) cover2

end Cert.KernelIdeal.Blocks

end
-- ==== Proof.RefStages.lean ====
/-
  The reference's two layers read row by row.

  Each layer of the reference is a chain of whole-matrix operations on the aggregated features: a scaling of every
  row by its node's in-degree factor, a product with the weights, the bias, two row reductions (mean and mean square
  of the centred row), an inverse square root, gain, shift and a clip at zero. Read at row `r` and column `q`, the
  chain is `Cert.Gcn.denseRow` of the aggregated ROW `r`: the product's entry is the sum over the contracted axis,
  each row reduction the sum over the row from the zero it starts at, and every broadcast repeats one entry.
  The per-operation reads are the generated ones; here the index maps they leave are computed and the reads chained.
-/
import proofs.«114655_j7524782702754_2_alg».proof.Proof.Gen.ReferenceIdeal.Read
import proofs.«114655_j7524782702754_2_alg».proof.Proof.RowSpec

noncomputable section

namespace Cert.ReferenceIdeal.Rows

open Cert.ReferenceIdeal Cert.ReferenceIdeal.Read Idealize.ShloMosaic Idealize.ShloMosaic.ValueIdx Cert.Gcn

/-! ## The index maps of the layout operations, at explicit coordinates -/

theorem i14 (r : Fin 50000) (q : Fin 128) : idx_main_v14 (ix2 r q) = ix2 r (0 : Fin 1) :=
  funext fun a => by match a with | ⟨0, _⟩ => rfl | ⟨1, _⟩ => rfl
theorem i27 (r : Fin 50000) (q : Fin 128) : idx_main_v27 (ix2 r q) = ix2 r (0 : Fin 1) :=
  funext fun a => by match a with | ⟨0, _⟩ => rfl | ⟨1, _⟩ => rfl
theorem i37 (r : Fin 50000) (q : Fin 128) : idx_main_v37 (ix2 r q) = ix2 r (0 : Fin 1) :=
  funext fun a => by match a with | ⟨0, _⟩ => rfl | ⟨1, _⟩ => rfl
theorem i44 (r : Fin 50000) (q : Fin 128) : idx_main_v44 (ix2 r q) = ix2 r (0 : Fin 1) :=
  funext fun a => by match a with | ⟨0, _⟩ => rfl | ⟨1, _⟩ => rfl
theorem i49 (r : Fin 50000) (q : Fin 128) : idx_main_v49 (ix2 r q) = ix2 r (0 : Fin 1) :=
  funext fun a => by match a with | ⟨0, _⟩ => rfl | ⟨1, _⟩ => rfl
theorem i59 (r : Fin 50000) (q : Fin 128) : idx_main_v59 (ix2 r q) = ix2 r (0 : Fin 1) :=
  funext fun a => by match a with | ⟨0, _⟩ => rfl | ⟨1, _⟩ => rfl
theorem i72 (r : Fin 50000) (q : Fin 128) : idx_main_v72 (ix2 r q) = ix2 r (0 : Fin 1) :=
  funext fun a => by match a with | ⟨0, _⟩ => rfl | ⟨1, _⟩ => rfl
theorem i82 (r : Fin 50000) (q : Fin 128) : idx_main_v82 (ix2 r q) = ix2 r (0 : Fin 1) :=
  funext fun a => by match a with | ⟨0, _⟩ => rfl | ⟨1, _⟩ => rfl
theorem i89 (r : Fin 50000) (q : Fin 128) : idx_main_v89 (ix2 r q) = ix2 r (0 : Fin 1) :=
  funext fun a => by match a with | ⟨0, _⟩ => rfl | ⟨1, _⟩ => rfl
theorem i94 (r : Fin 50000) (q : Fin 128) : idx_main_v94 (ix2 r q) = ix2 r (0 : Fin 1) :=
  funext fun a => by match a with | ⟨0, _⟩ => rfl | ⟨1, _⟩ => rfl
theorem i13 (r : Fin 50000) (u : Fin 1) : idx_main_v13 (ix2 r u) = ix1 r :=
  funext fun a => by match a with | ⟨0, _⟩ => rfl
theorem i26 (r : Fin 50000) (u : Fin 1) : idx_main_v26 (ix2 r u) = ix1 r :=
  funext fun a => by match a with | ⟨0, _⟩ => rfl
theorem i34 (r : Fin 50000) (u : Fin 1) : idx_main_v34 (ix2 r u) = ix1 r :=
  funext fun a => by match a with | ⟨0, _⟩ => rfl
theorem i41 (r : Fin 50000) (u : Fin 1) : idx_main_v41 (ix2 r u) = ix1 r :=
  funext fun a => by match a with | ⟨0, _⟩ => rfl
theorem i58 (r : Fin 50000) (u : Fin 1) : idx_main_v58 (ix2 r u) = ix1 r :=
  funext fun a => by match a with | ⟨0, _⟩ => rfl
theorem i71 (r : Fin 50000) (u : Fin 1) : idx_main_v71 (ix2 r u) = ix1 r :=
  funext fun a => by match a with | ⟨0, _⟩ => rfl
theorem i79 (r : Fin 50000) (u : Fin 1) : idx_main_v79 (ix2 r u) = ix1 r :=
  funext fun a => by match a with | ⟨0, _⟩ => rfl
theorem i86 (r : Fin 50000) (u : Fin 1) : idx_main_v86 (ix2 r u) = ix1 r :=
  funext fun a => by match a with | ⟨0, _⟩ => rfl
theorem i31 (r : Fin 50000) (q : Fin 128) : idx_main_v31 (ix2 r q) = ix2 (0 : Fin 1) q :=
  funext fun a => by match a with | ⟨0, _⟩ => rfl | ⟨1, _⟩ => rfl
theorem i52 (r : Fin 50000) (q : Fin 128) : idx_main_v52 (ix2 r q) = ix2 (0 : Fin 1) q :=
  funext fun a => by match a with | ⟨0, _⟩ => rfl | ⟨1, _⟩ => rfl
theorem i55 (r : Fin 50000) (q : Fin 128) : idx_main_v55 (ix2 r q) = ix2 (0 : Fin 1) q :=
  funext fun a => by match a with | ⟨0, _⟩ => rfl | ⟨1, _⟩ => rfl
theorem i76 (r : Fin 50000) (q : Fin 128) : idx_main_v76 (ix2 r q) = ix2 (0 : Fin 1) q :=
  funext fun a => by match a with | ⟨0, _⟩ => rfl | ⟨1, _⟩ => rfl
theorem i97 (r : Fin 50000) (q : Fin 128) : idx_main_v97 (ix2 r q) = ix2 (0 : Fin 1) q :=
  funext fun a => by match a with | ⟨0, _⟩ => rfl | ⟨1, _⟩ => rfl
theorem i100 (r : Fin 50000) (q : Fin 128) : idx_main_v100 (ix2 r q) = ix2 (0 : Fin 1) q :=
  funext fun a => by match a with | ⟨0, _⟩ => rfl | ⟨1, _⟩ => rfl
theorem i30 (u : Fin 1) (q : Fin 128) : idx_main_v30 (ix2 u q) = ix1 q :=
  funext fun a => by match a with | ⟨0, _⟩ => rfl
theorem i51 (u : Fin 1) (q : Fin 128) : idx_main_v51 (ix2 u q) = ix1 q :=
  funext fun a => by match a with | ⟨0, _⟩ => rfl
theorem i54 (u : Fin 1) (q : Fin 128) : idx_main_v54 (ix2 u q) = ix1 q :=
  funext fun a => by match a with | ⟨0, _⟩ => rfl
theorem i75 (u : Fin 1) (q : Fin 128) : idx_main_v75 (ix2 u q) = ix1 q :=
  funext fun a => by match a with | ⟨0, _⟩ => rfl
theorem i96 (u : Fin 1) (q : Fin 128) : idx_main_v96 (ix2 u q) = ix1 q :=
  funext fun a => by match a with | ⟨0, _⟩ => rfl
theorem i99 (u : Fin 1) (q : Fin 128) : idx_main_v99 (ix2 u q) = ix1 q :=
  funext fun a => by match a with | ⟨0, _⟩ => rfl
theorem i33 (r : Fin 50000) (k : Fin 128) : idx_main_v33 (ix1 r) k = ix2 r k :=
  funext fun a => by match a with | ⟨0, _⟩ => rfl | ⟨1, _⟩ => rfl
theorem i40 (r : Fin 50000) (k : Fin 128) : idx_main_v40 (ix1 r) k = ix2 r k :=
  funext fun a => by match a with | ⟨0, _⟩ => rfl | ⟨1, _⟩ => rfl
theorem i78 (r : Fin 50000) (k : Fin 128) : idx_main_v78 (ix1 r) k = ix2 r k :=
  funext fun a => by match a with | ⟨0, _⟩ => rfl | ⟨1, _⟩ => rfl
theorem i85 (r : Fin 50000) (k : Fin 128) : idx_main_v85 (ix1 r) k = ix2 r k :=
  funext fun a => by match a with | ⟨0, _⟩ => rfl | ⟨1, _⟩ => rfl
theorem l29 (r : Fin 50000) (j k : Fin 128) : lidx_main_v29 (ix2 r j) k = ix2 r k :=
  funext fun a => by match a with | ⟨0, _⟩ => rfl | ⟨1, _⟩ => rfl
theorem r29 (r : Fin 50000) (j k : Fin 128) : ridx_main_v29 (ix2 r j) k = ix2 k j :=
  funext fun a => by match a with | ⟨0, _⟩ => rfl | ⟨1, _⟩ => rfl
theorem l74 (r : Fin 50000) (j k : Fin 128) : lidx_main_v74 (ix2 r j) k = ix2 r k :=
  funext fun a => by match a with | ⟨0, _⟩ => rfl | ⟨1, _⟩ => rfl
theorem r74 (r : Fin 50000) (j k : Fin 128) : ridx_main_v74 (ix2 r j) k = ix2 k j :=
  funext fun a => by match a with | ⟨0, _⟩ => rfl | ⟨1, _⟩ => rfl

/-! ## Layer 1 -/

/-- The layer's affine stage at row `r`, column `j`: the affine map of the aggregated row `r`. -/
theorem aff1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (r : Fin 50000) (j : Fin 128) :
    val_main_v32 (F := Ideal) x0 x1 x2 x3 x4 (ix2 r j) = affRow (fun k => val_main_v25 (F := Ideal) x0 x1 x2 (ix2 r k)) (val_main_v12 (F := Ideal) x2 (ix1 r))
      (fun k j' => x3 (ix2 k j')) (fun j' => x4 (ix1 j')) j := by
  rw [val_main_v32_apply, val_main_v29_apply, val_main_v31_apply, val_main_v30_apply, i31, i30]
  unfold affRow
  refine congrArg₂ (fun a b : EReal => a + b) (Finset.sum_congr rfl fun k _ => ?_) rfl
  rw [l29, r29, val_main_v28_apply, val_main_v27_apply, val_main_v26_apply, i27, i26]
  rfl

/-- The row mean, as the one-column stage holds it. -/
theorem mean1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (r : Fin 50000) :
    val_main_v36 (F := Ideal) x0 x1 x2 x3 x4 (ix2 r (0 : Fin 1)) = meanRow fun j => val_main_v32 (F := Ideal) x0 x1 x2 x3 x4 (ix2 r j) := by
  have hs : (∑ k : Fin 128, val_main_v32 (F := Ideal) x0 x1 x2 x3 x4 (idx_main_v33 (ix1 r) k)) = ∑ j : Fin 128, val_main_v32 (F := Ideal) x0 x1 x2 x3 x4 (ix2 r j) :=
    Finset.sum_congr rfl fun k _ => by rw [i33]
  rw [val_main_v36_apply, val_main_v34_apply, val_main_v33_apply, val_main_v35_apply, val_main_cst_7_apply,
    val_main_cst_6_apply, i34, hs, meanRow]
  show Ideal.div (Ideal.ofBits .f32 0x00000000#32 + _) _ = Ideal.div _ _
  rw [Ideal.ofBits_zero_f32, zero_add]
  rfl

/-- The centred stage that feeds the variance. -/
theorem cenA1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (r : Fin 50000) (j : Fin 128) :
    val_main_v38 (F := Ideal) x0 x1 x2 x3 x4 (ix2 r j) = val_main_v32 (F := Ideal) x0 x1 x2 x3 x4 (ix2 r j) - meanRow fun j' => val_main_v32 (F := Ideal) x0 x1 x2 x3 x4 (ix2 r j') := by
  rw [val_main_v38_apply, val_main_v37_apply, i37, mean1]
  rfl

/-- The centred stage that feeds the normalisation (the same values again). -/
theorem cenB1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (r : Fin 50000) (j : Fin 128) :
    val_main_v45 (F := Ideal) x0 x1 x2 x3 x4 (ix2 r j) = val_main_v32 (F := Ideal) x0 x1 x2 x3 x4 (ix2 r j) - meanRow fun j' => val_main_v32 (F := Ideal) x0 x1 x2 x3 x4 (ix2 r j') := by
  rw [val_main_v45_apply, val_main_v44_apply, i44, mean1]
  rfl

/-- The row's variance, as the one-column stage holds it. -/
theorem var1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (r : Fin 50000) :
    val_main_v43 (F := Ideal) x0 x1 x2 x3 x4 (ix2 r (0 : Fin 1)) = varRow fun j => val_main_v32 (F := Ideal) x0 x1 x2 x3 x4 (ix2 r j) := by
  have hs : (∑ k : Fin 128, val_main_v39 (F := Ideal) x0 x1 x2 x3 x4 (idx_main_v40 (ix1 r) k))
      = ∑ j : Fin 128, (val_main_v32 (F := Ideal) x0 x1 x2 x3 x4 (ix2 r j) - meanRow fun j' => val_main_v32 (F := Ideal) x0 x1 x2 x3 x4 (ix2 r j')) * (val_main_v32 (F := Ideal) x0 x1 x2 x3 x4 (ix2 r j) - meanRow fun j' => val_main_v32 (F := Ideal) x0 x1 x2 x3 x4 (ix2 r j')) :=
    Finset.sum_congr rfl fun k _ => by
      rw [i40, val_main_v39_apply, cenA1]
      rfl
  rw [val_main_v43_apply, val_main_v41_apply, val_main_v40_apply, val_main_v42_apply, val_main_cst_9_apply,
    val_main_cst_8_apply, i41, hs, varRow, meanRow]
  show Ideal.div (Ideal.ofBits .f32 0x00000000#32 + _) _ = Ideal.div _ _
  rw [Ideal.ofBits_zero_f32, zero_add]
  rfl

/-- The layer's output at row `r`, column `q`: the whole layer applied to the aggregated row `r`. -/
theorem out1 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (r : Fin 50000) (q : Fin 128) :
    val_main_v57 (F := Ideal) x0 x1 x2 x3 x4 x5 x6 (ix2 r q) = denseRow (fun k => val_main_v25 (F := Ideal) x0 x1 x2 (ix2 r k)) (val_main_v12 (F := Ideal) x2 (ix1 r))
      (fun k j' => x3 (ix2 k j')) (fun j' => x4 (ix1 j')) (fun j' => x5 (ix1 j')) (fun j' => x6 (ix1 j')) q := by
  rw [val_main_v57_apply, val_main_call0_v0_apply, val_main_call0_cst_apply, val_main_v56_apply, val_main_v53_apply, val_main_v50_apply,
    val_main_v49_apply, val_main_v48_apply, val_main_v47_apply, val_main_v46_apply, val_main_cst_10_apply,
    val_main_v52_apply, val_main_v51_apply, val_main_v55_apply, val_main_v54_apply,
    i49, i52, i51, i55, i54, cenB1, var1,
    show (fun j => val_main_v32 (F := Ideal) x0 x1 x2 x3 x4 (ix2 r j)) = affRow (fun k => val_main_v25 (F := Ideal) x0 x1 x2 (ix2 r k)) (val_main_v12 (F := Ideal) x2 (ix1 r))
      (fun k j' => x3 (ix2 k j')) (fun j' => x4 (ix1 j')) from funext (aff1 x0 x1 x2 x3 x4 r),
    aff1]
  rfl

/-! ## Layer 2 -/

/-- The layer's affine stage at row `r`, column `j`: the affine map of the aggregated row `r`. -/
theorem aff2 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal)) (r : Fin 50000) (j : Fin 128) :
    val_main_v77 (F := Ideal) x0 x1 x2 x3 x4 x5 x6 x7 x8 (ix2 r j) = affRow (fun k => val_main_v70 (F := Ideal) x0 x1 x2 x3 x4 x5 x6 (ix2 r k)) (val_main_v12 (F := Ideal) x2 (ix1 r))
      (fun k j' => x7 (ix2 k j')) (fun j' => x8 (ix1 j')) j := by
  rw [val_main_v77_apply, val_main_v74_apply, val_main_v76_apply, val_main_v75_apply, i76, i75]
  unfold affRow
  refine congrArg₂ (fun a b : EReal => a + b) (Finset.sum_congr rfl fun k _ => ?_) rfl
  rw [l74, r74, val_main_v73_apply, val_main_v72_apply, val_main_v71_apply, i72, i71]
  rfl

/-- The row mean, as the one-column stage holds it. -/
theorem mean2 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal)) (r : Fin 50000) :
    val_main_v81 (F := Ideal) x0 x1 x2 x3 x4 x5 x6 x7 x8 (ix2 r (0 : Fin 1)) = meanRow fun j => val_main_v77 (F := Ideal) x0 x1 x2 x3 x4 x5 x6 x7 x8 (ix2 r j) := by
  have hs : (∑ k : Fin 128, val_main_v77 (F := Ideal) x0 x1 x2 x3 x4 x5 x6 x7 x8 (idx_main_v78 (ix1 r) k)) = ∑ j : Fin 128, val_main_v77 (F := Ideal) x0 x1 x2 x3 x4 x5 x6 x7 x8 (ix2 r j) :=
    Finset.sum_congr rfl fun k _ => by rw [i78]
  rw [val_main_v81_apply, val_main_v79_apply, val_main_v78_apply, val_main_v80_apply, val_main_cst_15_apply,
    val_main_cst_14_apply, i79, hs, meanRow]
  show Ideal.div (Ideal.ofBits .f32 0x00000000#32 + _) _ = Ideal.div _ _
  rw [Ideal.ofBits_zero_f32, zero_add]
  rfl

/-- The centred stage that feeds the variance. -/
theorem cenA2 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal)) (r : Fin 50000) (j : Fin 128) :
    val_main_v83 (F := Ideal) x0 x1 x2 x3 x4 x5 x6 x7 x8 (ix2 r j) = val_main_v77 (F := Ideal) x0 x1 x2 x3 x4 x5 x6 x7 x8 (ix2 r j) - meanRow fun j' => val_main_v77 (F := Ideal) x0 x1 x2 x3 x4 x5 x6 x7 x8 (ix2 r j') := by
  rw [val_main_v83_apply, val_main_v82_apply, i82, mean2]
  rfl

/-- The centred stage that feeds the normalisation (the same values again). -/
theorem cenB2 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal)) (r : Fin 50000) (j : Fin 128) :
    val_main_v90 (F := Ideal) x0 x1 x2 x3 x4 x5 x6 x7 x8 (ix2 r j) = val_main_v77 (F := Ideal) x0 x1 x2 x3 x4 x5 x6 x7 x8 (ix2 r j) - meanRow fun j' => val_main_v77 (F := Ideal) x0 x1 x2 x3 x4 x5 x6 x7 x8 (ix2 r j') := by
  rw [val_main_v90_apply, val_main_v89_apply, i89, mean2]
  rfl

/-- The row's variance, as the one-column stage holds it. -/
theorem var2 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal)) (r : Fin 50000) :
    val_main_v88 (F := Ideal) x0 x1 x2 x3 x4 x5 x6 x7 x8 (ix2 r (0 : Fin 1)) = varRow fun j => val_main_v77 (F := Ideal) x0 x1 x2 x3 x4 x5 x6 x7 x8 (ix2 r j) := by
  have hs : (∑ k : Fin 128, val_main_v84 (F := Ideal) x0 x1 x2 x3 x4 x5 x6 x7 x8 (idx_main_v85 (ix1 r) k))
      = ∑ j : Fin 128, (val_main_v77 (F := Ideal) x0 x1 x2 x3 x4 x5 x6 x7 x8 (ix2 r j) - meanRow fun j' => val_main_v77 (F := Ideal) x0 x1 x2 x3 x4 x5 x6 x7 x8 (ix2 r j')) * (val_main_v77 (F := Ideal) x0 x1 x2 x3 x4 x5 x6 x7 x8 (ix2 r j) - meanRow fun j' => val_main_v77 (F := Ideal) x0 x1 x2 x3 x4 x5 x6 x7 x8 (ix2 r j')) :=
    Finset.sum_congr rfl fun k _ => by
      rw [i85, val_main_v84_apply, cenA2]
      rfl
  rw [val_main_v88_apply, val_main_v86_apply, val_main_v85_apply, val_main_v87_apply, val_main_cst_17_apply,
    val_main_cst_16_apply, i86, hs, varRow, meanRow]
  show Ideal.div (Ideal.ofBits .f32 0x00000000#32 + _) _ = Ideal.div _ _
  rw [Ideal.ofBits_zero_f32, zero_add]
  rfl

/-- The layer's output at row `r`, column `q`: the whole layer applied to the aggregated row `r`. -/
theorem out2 (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (r : Fin 50000) (q : Fin 128) :
    val_main_v102 (F := Ideal) x0 x1 x2 x3 x4 x5 x6 x7 x8 x9 x10 (ix2 r q) = denseRow (fun k => val_main_v70 (F := Ideal) x0 x1 x2 x3 x4 x5 x6 (ix2 r k)) (val_main_v12 (F := Ideal) x2 (ix1 r))
      (fun k j' => x7 (ix2 k j')) (fun j' => x8 (ix1 j')) (fun j' => x9 (ix1 j')) (fun j' => x10 (ix1 j')) q := by
  rw [val_main_v102_apply, val_main_call1_v0_apply, val_main_call1_cst_apply, val_main_v101_apply, val_main_v98_apply, val_main_v95_apply,
    val_main_v94_apply, val_main_v93_apply, val_main_v92_apply, val_main_v91_apply, val_main_cst_18_apply,
    val_main_v97_apply, val_main_v96_apply, val_main_v100_apply, val_main_v99_apply,
    i94, i97, i96, i100, i99, cenB2, var2,
    show (fun j => val_main_v77 (F := Ideal) x0 x1 x2 x3 x4 x5 x6 x7 x8 (ix2 r j)) = affRow (fun k => val_main_v70 (F := Ideal) x0 x1 x2 x3 x4 x5 x6 (ix2 r k)) (val_main_v12 (F := Ideal) x2 (ix1 r))
      (fun k j' => x7 (ix2 k j')) (fun j' => x8 (ix1 j')) from funext (aff2 x0 x1 x2 x3 x4 x5 x6 x7 x8 r),
    aff2]
  rfl

end Cert.ReferenceIdeal.Rows

end
-- ==== Proof.KernelFold.lean ====
/-
  The kernel program's boundary contents, walked back to the launch memory.

  Stage by stage the arrays the kernel program holds are the reference's stages at the same arguments: the two
  degree factors (as one-column arrays), the features scaled by the out-degree factors (the row-scaling region),
  the first aggregation (gather along the sources, scatter-add along the destinations: the same host operations on
  the same operands), the first layer's scaled output (the first dense region, row by row), the second aggregation
  and the last layer (the last dense region). A stretch of host operations applies its operations to the contents
  before it; a region replaces its output array and leaves every other buffer; an argument is never written.
-/
import proofs.«114655_j7524782702754_2_alg».proof.Proof.KernelBlocks1
import proofs.«114655_j7524782702754_2_alg».proof.Proof.KernelBlocks2
import proofs.«114655_j7524782702754_2_alg».proof.Proof.RefStages
import Idealize.ShloMosaic.Lib.StableHlo.Run
import Idealize.ShloMosaic.Lib.ValueLayout

set_option maxRecDepth 16384

noncomputable section

namespace Cert.KernelIdeal.Fold

open Cert.KernelIdeal Cert.KernelIdeal.Gen Cert.KernelIdeal.Blocks Cert.Gcn
open Idealize.ShloMosaic Idealize.ShloMosaic.TcCoe Idealize.ShloMosaic.ValueIdx Idealize.SL.Sem Idealize.ShloMosaic.StableHlo
open Cert.Attn.Layout Cert.ReferenceIdeal.Rows

variable (m : (ℓ : Loc nD τ sig) → Buf (Elt Ideal) ℓ) (ρ : Dev nD → PrngReg) (c : Dev nD)

/-- One aggregation step: the rows of `h` gathered along the edge sources `src` (a negative index counted from the end)
    and added up along the edge destinations `dst`, from zero. -/
def aggregate (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-! ## The arguments, at the boundaries where they are read -/

theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg1 : W1 m ρ c (Proc.devRef .tc main_arg1) = m ((c : Thread nD τ).loc main_arg1) := by
  show StableHlo.after hostOps0 (W0 m ρ c) (Proc.devRef .tc main_arg1) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl
theorem W1_arg7 : W1 m ρ c (Proc.devRef .tc main_arg7) = m ((c : Thread nD τ).loc main_arg7) := by
  show StableHlo.after hostOps0 (W0 m ρ c) (Proc.devRef .tc main_arg7) = _
  after_results <;> rfl
theorem W1_arg8 : W1 m ρ c (Proc.devRef .tc main_arg8) = m ((c : Thread nD τ).loc main_arg8) := by
  show StableHlo.after hostOps0 (W0 m ρ c) (Proc.devRef .tc main_arg8) = _
  after_results <;> rfl
theorem W1_arg9 : W1 m ρ c (Proc.devRef .tc main_arg9) = m ((c : Thread nD τ).loc main_arg9) := by
  show StableHlo.after hostOps0 (W0 m ρ c) (Proc.devRef .tc main_arg9) = _
  after_results <;> rfl
theorem W1_arg10 : W1 m ρ c (Proc.devRef .tc main_arg10) = m ((c : Thread nD τ).loc main_arg10) := by
  show StableHlo.after hostOps0 (W0 m ρ c) (Proc.devRef .tc main_arg10) = _
  after_results <;> rfl
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W3_arg1 : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg3 : W3 m ρ c (Proc.devRef .tc main_arg3) = m ((c : Thread nD τ).loc main_arg3) := by
  show StableHlo.after hostOps1 (W2 m ρ c) (Proc.devRef .tc main_arg3) = _
  after_results
  exact W2_arg3 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg8 : W3 m ρ c (Proc.devRef .tc main_arg8) = m ((c : Thread nD τ).loc main_arg8) := by
  show StableHlo.after hostOps1 (W2 m ρ c) (Proc.devRef .tc main_arg8) = _
  after_results
  exact W2_arg8 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 : W3 m ρ c (Proc.devRef .tc main_arg10) = m ((c : Thread nD τ).loc main_arg10) := by
  show StableHlo.after hostOps1 (W2 m ρ c) (Proc.devRef .tc main_arg10) = _
  after_results
  exact W2_arg10 m ρ c
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)

/-! ## The degree factors -/

/-- The out-degree factors as the launch stretch leaves them: the reference's vector of factors, one column. -/
theorem W1_v12 : W1 m ρ c (Proc.devRef .tc main_v12) = Cert.ReferenceIdeal.Read.val_main_v13 (F := Ideal) (m ((c : Thread nD τ).loc main_arg1)) := by
  have e : W1 m ρ c (Proc.devRef .tc main_v12)
      = shapeCast S50000x1 (Cert.ReferenceIdeal.Read.val_main_v11 (F := Ideal) (m ((c : Thread nD τ).loc main_arg1))) shapeCasts_S50000_S50000x1 := by
    show StableHlo.after hostOps0 (W0 m ρ c) (Proc.devRef .tc main_v12) = _
    after_results
    rfl
  rw [e]
  funext i
  obtain ⟨r, u, rfl⟩ : ∃ (r : Fin 50000) (u : Fin 1), i = ix2 r u := ⟨i 0, i 1, eq_ix2 i⟩
  rw [shapeCast_a_a1_apply, Cert.ReferenceIdeal.Read.val_main_v13_apply, i13]

/-- The in-degree factors likewise. -/
theorem W1_v14 : W1 m ρ c (Proc.devRef .tc main_v14) = Cert.ReferenceIdeal.Read.val_main_v26 (F := Ideal) (m ((c : Thread nD τ).loc main_arg2)) := by
  have e : W1 m ρ c (Proc.devRef .tc main_v14)
      = shapeCast S50000x1 (Cert.ReferenceIdeal.Read.val_main_v12 (F := Ideal) (m ((c : Thread nD τ).loc main_arg2))) shapeCasts_S50000_S50000x1 := by
    show StableHlo.after hostOps0 (W0 m ρ c) (Proc.devRef .tc main_v14) = _
    after_results
    rfl
  rw [e]
  funext i
  obtain ⟨r, u, rfl⟩ : ∃ (r : Fin 50000) (u : Fin 1), i = ix2 r u := ⟨i 0, i 1, eq_ix2 i⟩
  rw [shapeCast_a_a1_apply, Cert.ReferenceIdeal.Read.val_main_v26_apply, i26]

/-- The row-scaling region reads the out-degree factors and leaves them. -/
theorem W2_v12 : W2 m ρ c (Proc.devRef .tc main_v12) = Cert.ReferenceIdeal.Read.val_main_v13 (F := Ideal) (m ((c : Thread nD τ).loc main_arg1)) :=
  ((W2_arr m ρ c 1).trans (((dat0 (V1 m ρ) c).arrAt_in 1 rfl _).trans (A_eq0 (V1 m ρ) c 1))).trans (W1_v12 m ρ c)

theorem W2_v14 : W2 m ρ c (Proc.devRef .tc main_v14) = Cert.ReferenceIdeal.Read.val_main_v26 (F := Ideal) (m ((c : Thread nD τ).loc main_arg2)) :=
  (W2_of_ne m ρ c main_v14 (by decide)).trans (W1_v14 m ρ c)

/-! ## The features scaled by the out-degree factors -/

theorem W2_v15 : W2 m ρ c (Proc.devRef .tc main_v15) = Cert.ReferenceIdeal.Read.val_main_v15 (F := Ideal) (m ((c : Thread nD τ).loc main_arg0)) (m ((c : Thread nD τ).loc main_arg1)) := by
  refine (W2_arr m ρ c 2).trans ((final0 (V1 m ρ) c).trans ?_)
  show scaleRows (W1 m ρ c (Proc.devRef .tc main_arg0)) (W1 m ρ c (Proc.devRef .tc main_v12)) = _
  rw [W1_arg0, W1_v12]
  funext i
  obtain ⟨r, q, rfl⟩ : ∃ (r : Fin 50000) (q : Fin 128), i = ix2 r q := ⟨i 0, i 1, eq_ix2 i⟩
  rw [Cert.ReferenceIdeal.Read.val_main_v15_apply, Cert.ReferenceIdeal.Read.val_main_v14_apply, i14]
  rfl

/-! ## The first aggregation and the first layer's inputs -/

theorem W3_v25 : W3 m ρ c (Proc.devRef .tc main_v25) = Cert.ReferenceIdeal.Read.val_main_v25 (F := Ideal) (m ((c : Thread nD τ).loc main_arg0)) (m ((c : Thread nD τ).loc main_arg1)) (m ((c : Thread nD τ).loc main_arg2)) := by
  have e : W3 m ρ c (Proc.devRef .tc main_v25)
      = aggregate (W2 m ρ c (Proc.devRef .tc main_v15)) (W2 m ρ c (Proc.devRef .tc main_arg1)) (W2 m ρ c (Proc.devRef .tc main_arg2)) := by
    show StableHlo.after hostOps1 (W2 m ρ c) (Proc.devRef .tc main_v25) = _
    after_results
    rfl
  rw [e, W2_v15, W2_arg1, W2_arg2]
  rfl

theorem W3_v14 : W3 m ρ c (Proc.devRef .tc main_v14) = Cert.ReferenceIdeal.Read.val_main_v26 (F := Ideal) (m ((c : Thread nD τ).loc main_arg2)) := by
  show StableHlo.after hostOps1 (W2 m ρ c) (Proc.devRef .tc main_v14) = _
  after_results
  exact W2_v14 m ρ c

theorem W3_v12 : W3 m ρ c (Proc.devRef .tc main_v12) = Cert.ReferenceIdeal.Read.val_main_v13 (F := Ideal) (m ((c : Thread nD τ).loc main_arg1)) := by
  show StableHlo.after hostOps1 (W2 m ρ c) (Proc.devRef .tc main_v12) = _
  after_results
  exact W2_v12 m ρ c

theorem W3_v26 : W3 m ρ c (Proc.devRef .tc main_v26) = shapeCast S1x128 (m ((c : Thread nD τ).loc main_arg4)) shapeCasts_S128_S1x128 := by
  show StableHlo.after hostOps1 (W2 m ρ c) (Proc.devRef .tc main_v26) = _
  after_results
  rw [W2_arg4]
  rfl

theorem W3_v27 : W3 m ρ c (Proc.devRef .tc main_v27) = shapeCast S1x128 (m ((c : Thread nD τ).loc main_arg5)) shapeCasts_S128_S1x128 := by
  show StableHlo.after hostOps1 (W2 m ρ c) (Proc.devRef .tc main_v27) = _
  after_results
  rw [W2_arg5]
  rfl

theorem W3_v28 : W3 m ρ c (Proc.devRef .tc main_v28) = shapeCast S1x128 (m ((c : Thread nD τ).loc main_arg6)) shapeCasts_S128_S1x128 := by
  show StableHlo.after hostOps1 (W2 m ρ c) (Proc.devRef .tc main_v28) = _
  after_results
  rw [W2_arg6]
  rfl

/-! ## The first layer's scaled output -/

theorem W4_v29 : W4 m ρ c (Proc.devRef .tc main_v29)
    = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 7).trans ((final1 (V3 m ρ) c).trans ?_)
  show layerRows (W3 m ρ c (Proc.devRef .tc main_v25)) (W3 m ρ c (Proc.devRef .tc main_v14)) (W3 m ρ c (Proc.devRef .tc main_v12))
    (W3 m ρ c (Proc.devRef .tc main_arg3)) (W3 m ρ c (Proc.devRef .tc main_v26)) (W3 m ρ c (Proc.devRef .tc main_v27))
    (W3 m ρ c (Proc.devRef .tc main_v28)) = _
  rw [W3_v25, W3_v14, W3_v12, W3_arg3, W3_v26, W3_v27, W3_v28]
  funext i
  obtain ⟨r, q, rfl⟩ : ∃ (r : Fin 50000) (q : Fin 128), i = ix2 r q := ⟨i 0, i 1, eq_ix2 i⟩
  rw [Cert.ReferenceIdeal.Read.val_main_v60_apply, Cert.ReferenceIdeal.Read.val_main_v59_apply, Cert.ReferenceIdeal.Read.val_main_v58_apply,
    i59, i58, out1]
  refine congrArg₂ (fun a b : EReal => a * b) (denseRow_congr rfl ?_ rfl ?_ ?_ ?_ q) ?_
  · rw [Cert.ReferenceIdeal.Read.val_main_v26_apply, i26]
  · exact funext fun j => shapeCast_a_1a_apply _ _ (0 : Fin 1) j
  · exact funext fun j => shapeCast_a_1a_apply _ _ (0 : Fin 1) j
  · exact funext fun j => shapeCast_a_1a_apply _ _ (0 : Fin 1) j
  · rw [Cert.ReferenceIdeal.Read.val_main_v13_apply, i13]

/-! ## The second aggregation and the last layer's inputs -/

theorem W5_v39 : W5 m ρ c (Proc.devRef .tc main_v39)
    = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W5 m ρ c (Proc.devRef .tc main_v39)
      = aggregate (W4 m ρ c (Proc.devRef .tc main_v29)) (W4 m ρ c (Proc.devRef .tc main_arg1)) (W4 m ρ c (Proc.devRef .tc main_arg2)) := by
    show StableHlo.after hostOps2 (W4 m ρ c) (Proc.devRef .tc main_v39) = _
    after_results
    rfl
  rw [e, W4_v29, W4_arg1, W4_arg2]
  rfl

theorem W4_v14 : W4 m ρ c (Proc.devRef .tc main_v14) = Cert.ReferenceIdeal.Read.val_main_v26 (F := Ideal) (m ((c : Thread nD τ).loc main_arg2)) :=
  ((W4_arr m ρ c 1).trans (((dat1 (V3 m ρ) c).arrAt_in 1 rfl _).trans (A_eq1 (V3 m ρ) c 1))).trans (W3_v14 m ρ c)

theorem W5_v14 : W5 m ρ c (Proc.devRef .tc main_v14) = Cert.ReferenceIdeal.Read.val_main_v26 (F := Ideal) (m ((c : Thread nD τ).loc main_arg2)) := by
  show StableHlo.after hostOps2 (W4 m ρ c) (Proc.devRef .tc main_v14) = _
  after_results
  exact W4_v14 m ρ c

theorem W5_arg7 : W5 m ρ c (Proc.devRef .tc main_arg7) = m ((c : Thread nD τ).loc main_arg7) := by
  show StableHlo.after hostOps2 (W4 m ρ c) (Proc.devRef .tc main_arg7) = _
  after_results
  exact W4_arg7 m ρ c

theorem W5_v40 : W5 m ρ c (Proc.devRef .tc main_v40) = shapeCast S1x128 (m ((c : Thread nD τ).loc main_arg8)) shapeCasts_S128_S1x128 := by
  show StableHlo.after hostOps2 (W4 m ρ c) (Proc.devRef .tc main_v40) = _
  after_results
  rw [W4_arg8]
  rfl

theorem W5_v41 : W5 m ρ c (Proc.devRef .tc main_v41) = shapeCast S1x128 (m ((c : Thread nD τ).loc main_arg9)) shapeCasts_S128_S1x128 := by
  show StableHlo.after hostOps2 (W4 m ρ c) (Proc.devRef .tc main_v41) = _
  after_results
  rw [W4_arg9]
  rfl

theorem W5_v42 : W5 m ρ c (Proc.devRef .tc main_v42) = shapeCast S1x128 (m ((c : Thread nD τ).loc main_arg10)) shapeCasts_S128_S1x128 := by
  show StableHlo.after hostOps2 (W4 m ρ c) (Proc.devRef .tc main_v42) = _
  after_results
  rw [W4_arg10]
  rfl

/-! ## The result -/

/-- The result array at the last boundary is the reference's result stage at the same arguments. -/
theorem W6_v43 : W6 m ρ c (Proc.devRef .tc main_v43) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 6).trans ((final2 (V5 m ρ) c).trans ?_)
  show denseRows (W5 m ρ c (Proc.devRef .tc main_v39)) (W5 m ρ c (Proc.devRef .tc main_v14)) (W5 m ρ c (Proc.devRef .tc main_arg7))
    (W5 m ρ c (Proc.devRef .tc main_v40)) (W5 m ρ c (Proc.devRef .tc main_v41)) (W5 m ρ c (Proc.devRef .tc main_v42)) = _
  rw [W5_v39, W5_v14, W5_arg7, W5_v40, W5_v41, W5_v42]
  funext i
  obtain ⟨r, q, rfl⟩ : ∃ (r : Fin 50000) (q : Fin 128), i = ix2 r q := ⟨i 0, i 1, eq_ix2 i⟩
  rw [out2]
  refine denseRow_congr rfl ?_ rfl ?_ ?_ ?_ q
  · rw [Cert.ReferenceIdeal.Read.val_main_v26_apply, i26]
  · exact funext fun j => shapeCast_a_1a_apply _ _ (0 : Fin 1) j
  · exact funext fun j => shapeCast_a_1a_apply _ _ (0 : Fin 1) j
  · exact funext fun j => shapeCast_a_1a_apply _ _ (0 : Fin 1) j

end Cert.KernelIdeal.Fold

end
-- ==== Proof.lean ====
/-
  Two layers of graph convolution on 50000 nodes and 800000 edges: the tiled program against the whole-matrix one.

  Both programs compute, per layer, `relu (layernorm ((S h ⊙ isi) W + b))` where `h` is the layer's input with every
  row scaled by its node's out-degree factor `iso`, `S` gathers rows along the edge sources and adds them up along the
  edge destinations, and `isi` are the in-degree factors. The tiled program does the row scaling and the two dense
  layers in three regions over 25 blocks of 2000 rows (the first dense region also applies the next layer's row
  scaling), with the gathers and scatter-adds between them as host operations; the reference does everything on
  whole matrices. On the extended reals the two are the same function of the arguments with no algebra between them:
  every entry of a dense layer's output depends on one row of its input only (`Cert.Gcn.denseRow`), the blocks tile
  the rows, the matrix unit's product into a zero accumulator and the host's product are the same sum, a lane
  reduction and the host's row reduction from zero are the same sum, and the host operations between the regions are
  literally the reference's, applied to equal operands. No hypothesis on the inputs is used.

  The frames of the two kernel programs are the generated ones; the reference's frame is its generated run with the
  result dropped; the idealization rewrote nothing, so there is nothing to preserve.
-/
import proofs.«114655_j7524782702754_2_alg».proof.Defs
import proofs.«114655_j7524782702754_2_alg».proof.Proof.Gen.Kernel
import proofs.«114655_j7524782702754_2_alg».proof.Proof.Gen.Kernel.Frame
import proofs.«114655_j7524782702754_2_alg».proof.Proof.Gen.KernelIdeal
import proofs.«114655_j7524782702754_2_alg».proof.Proof.Gen.KernelIdeal.Frame
import proofs.«114655_j7524782702754_2_alg».proof.Proof.Gen.ReferenceIdeal
import proofs.«114655_j7524782702754_2_alg».proof.Proof.Gen.ReferenceIdeal.Run
import proofs.«114655_j7524782702754_2_alg».proof.Proof.Gen.ReferenceIdeal.Read
import proofs.«114655_j7524782702754_2_alg».proof.Proof.Gen.Pre_finite_inputs
import proofs.«114655_j7524782702754_2_alg».proof.Proof.KernelRun
import proofs.«114655_j7524782702754_2_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's result stage of the (agreeing) arguments. -/
theorem algebraic : Cert.algebraic_KernelIdeal_ReferenceIdeal := by
  intro m ρ m' ρ' _ hagree
  refine ⟨fun c => Cert.KernelIdeal.Gen.W6 m ρ c (Proc.devRef .tc Cert.KernelIdeal.main_v43),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine ((Cert.ReferenceIdeal.Read.val_main_v102_eq m' c).trans ?_).trans (Cert.KernelIdeal.Fold.W6_v43 m ρ c).symm
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
